-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel

variable [Facts]

def fn_part1 {F : FTy → Type} [FloatOps F] (main_v13 : IVec S_ 1) (main_v16 : IVec S8192x2 1) : IVec S_ 1 :=
  let main_c_5 : IVec S_ 1 := constantI S_ 1 1#1
  let main_v17 : IVec S_ 1 := (fun x v => Host.reduce IntOp.andi x v reducesTo_S8192x2_S_d0_1 h_S_) main_v16 main_c_5
  let main_v18 : IVec S_ 1 := andi main_v13 main_v17
  main_v18

def fn {F : FTy → Type} [FloatOps F] (main_arg0 : FVec F S8192x2 .f32) (main_arg1 : FVec F S8192x2 .f32) (main_arg2 : FVec F S8192x2 .f32) (main_arg3 : FVec F S8192x2 .f32) : IVec S_ 1 :=
  let main_v0 : FVec F S8192x2 .f32 := Host.absf main_arg0
  let main_cst : FVec F S_ .f32 := constant S_ .f32 0x7F800000#32
  let main_v1 : FVec F S8192x2 .f32 := broadcastInDim S8192x2 ![] bcast_S_S8192x2 main_cst
  let main_v2 : IVec S8192x2 1 := cmpf .olt main_v0 main_v1
  let main_c : IVec S_ 1 := constantI S_ 1 1#1
  let main_v3 : IVec S_ 1 := (fun x v => Host.reduce IntOp.andi x v reducesTo_S8192x2_S_d0_1 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S8192x2 .f32 := Host.absf main_arg2
  let main_cst_2 : FVec F S_ .f32 := constant S_ .f32 0x7F800000#32
  let main_v10 : FVec F S8192x2 .f32 := broadcastInDim S8192x2 ![] bcast_S_S8192x2 main_cst_2
  let main_v11 : IVec S8192x2 1 := cmpf .olt main_v9 main_v10
  let main_c_3 : IVec S_ 1 := constantI S_ 1 1#1
  let main_v12 : IVec S_ 1 := (fun x v => Host.reduce IntOp.andi x v reducesTo_S8192x2_S_d0_1 h_S_) main_v11 main_c_3
  let main_v13 : IVec S_ 1 := andi main_v8 main_v12
  let main_v14 : FVec F S8192x2 .f32 := Host.absf main_arg3
  let main_cst_4 : FVec F S_ .f32 := constant S_ .f32 0x7F800000#32
  let main_v15 : FVec F S8192x2 .f32 := broadcastInDim S8192x2 ![] bcast_S_S8192x2 main_cst_4
  let main_v16 : IVec S8192x2 1 := cmpf .olt main_v14 main_v15
  fn_part1 (F := F) main_v13 main_v16
-- ==== Kernel.lean ====
abbrev S8192x2 : Shape := ⟨2, ![8192, 2]⟩
abbrev S8192x1 : Shape := ⟨2, ![8192, 1]⟩
abbrev S8192 : Shape := ⟨1, ![8192]⟩
abbrev S64x128 : Shape := ⟨2, ![64, 128]⟩
abbrev S32x128 : Shape := ⟨2, ![32, 128]⟩

abbrev nBuf : Space → Nat
  | .hbm => 35
  | .vmem => 20
  | .smem => 0
  | _ => 0

abbrev bufTy : (tb : Table) → Fin (tcTables nBuf tb) → BufTy
  | .hbm, ⟨0, _⟩ => ⟨S8192x2, .f32⟩
  | .hbm, ⟨1, _⟩ => ⟨S8192x2, .f32⟩
  | .hbm, ⟨2, _⟩ => ⟨S8192x2, .f32⟩
  | .hbm, ⟨3, _⟩ => ⟨S8192x2, .f32⟩
  | .hbm, ⟨4, _⟩ => ⟨S8192x1, .f32⟩
  | .hbm, ⟨5, _⟩ => ⟨S8192, .f32⟩
  | .hbm, ⟨6, _⟩ => ⟨S64x128, .f32⟩
  | .hbm, ⟨7, _⟩ => ⟨S8192x1, .f32⟩
  | .hbm, ⟨8, _⟩ => ⟨S8192, .f32⟩
  | .hbm, ⟨9, _⟩ => ⟨S64x128, .f32⟩
  | .hbm, ⟨10, _⟩ => ⟨S8192x1, .f32⟩
  | .hbm, ⟨11, _⟩ => ⟨S8192, .f32⟩
  | .hbm, ⟨12, _⟩ => ⟨S64x128, .f32⟩
  | .hbm, ⟨13, _⟩ => ⟨S8192x1, .f32⟩
  | .hbm, ⟨14, _⟩ => ⟨S8192, .f32⟩
  | .hbm, ⟨15, _⟩ => ⟨S64x128, .f32⟩
  | .hbm, ⟨16, _⟩ => ⟨S8192x1, .f32⟩
  | .hbm, ⟨17, _⟩ => ⟨S8192, .f32⟩
  | .hbm, ⟨18, _⟩ => ⟨S64x128, .f32⟩
  | .hbm, ⟨19, _⟩ => ⟨S8192x1, .f32⟩
  | .hbm, ⟨20, _⟩ => ⟨S8192, .f32⟩
  | .hbm, ⟨21, _⟩ => ⟨S64x128, .f32⟩
  | .hbm, ⟨22, _⟩ => ⟨S8192x1, .f32⟩
  | .hbm, ⟨23, _⟩ => ⟨S8192, .f32⟩
  | .hbm, ⟨24, _⟩ => ⟨S64x128, .f32⟩
  | .hbm, ⟨25, _⟩ => ⟨S8192x1, .f32⟩
  | .hbm, ⟨26, _⟩ => ⟨S8192, .f32⟩
  | .hbm, ⟨27, _⟩ => ⟨S64x128, .f32⟩
  | .hbm, ⟨28, _⟩ => ⟨S64x128, .f32⟩
  | .hbm, ⟨29, _⟩ => ⟨S64x128, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x1, .f32⟩
  | .hbm, ⟨34, _⟩ => ⟨S8192x2, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S32x128, .f32⟩
  | .local _ .vmem, ⟨15, _⟩ => ⟨S32x128, .f32⟩
  | .local _ .vmem, ⟨16, _⟩ => ⟨S32x128, .f32⟩
  | .local _ .vmem, ⟨17, _⟩ => ⟨S32x128, .f32⟩
  | .local _ .vmem, ⟨18, _⟩ => ⟨S32x128, .f32⟩
  | .local _ .vmem, ⟨19, _⟩ => ⟨S32x128, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24_0 : Ref sig .tc := ⟨.hbm, 28, rfl⟩
abbrev main_v24_1 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S8192x2_S8192x1_0_0 : S8192x2.Slices ![0, 0] S8192x1
  shapeCasts_S8192x1_S8192 : S8192x1.ShapeCasts S8192
  shapeCasts_S8192_S64x128 : S8192.ShapeCasts S64x128
  slices_S8192x2_S8192x1_0_1 : S8192x2.Slices ![0, 1] S8192x1
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S64x128_S8192 : S64x128.ShapeCasts S8192
  bcast_S8192_S8192x1_0 : S8192.BroadcastsInDim S8192x1 (![0] : Fin 1 → Fin S8192x1.rank)
  concatenates_S8192x1_S8192x1_S8192x2_d1 : Shape.Concatenates [S8192x1, S8192x1] S8192x2 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S64x128.size a
  hwx0_0 : ∀ i : grid0.Coords, EltTy.bits .f32 = 32 ∨ (Rect.block (s := S64x128) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S64x128.size a
  hwx0_1 : ∀ i : grid0.Coords, EltTy.bits .f32 = 32 ∨ (Rect.block (s := S64x128) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S64x128.size a
  hwx0_2 : ∀ i : grid0.Coords, EltTy.bits .f32 = 32 ∨ (Rect.block (s := S64x128) S32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S64x128.size a
  hwx0_3 : ∀ i : grid0.Coords, EltTy.bits .f32 = 32 ∨ (Rect.block (s := S64x128) S32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S64x128.size a
  hwx0_4 : ∀ i : grid0.Coords, EltTy.bits .f32 = 32 ∨ (Rect.block (s := S64x128) S32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S64x128.size a
  hwx0_5 : ∀ i : grid0.Coords, EltTy.bits .f32 = 32 ∨ (Rect.block (s := S64x128) S32x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S64x128.size a
  hwx0_6 : ∀ i : grid0.Coords, EltTy.bits .f32 = 32 ∨ (Rect.block (s := S64x128) S32x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S64x128.size a
  hwx0_7 : ∀ i : grid0.Coords, EltTy.bits .f32 = 32 ∨ (Rect.block (s := S64x128) S32x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x128.size a ≤ S64x128.size a
  hwx0_8 : ∀ i : grid0.Coords, EltTy.bits .f32 = 32 ∨ (Rect.block (s := S64x128) S32x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x128.size a ≤ S64x128.size a
  hwx0_9 : ∀ i : grid0.Coords, EltTy.bits .f32 = 32 ∨ (Rect.block (s := S64x128) S32x128.size (cc0_transform_9 i) (hinb0_9 i)).WholeWords (EltTy.packing .f32)

variable [Facts₀]

abbrev win0_0 : Pipeline.Window sig grid0 :=
  Pipeline.Window.ofSpec (Memref.whole main_v2) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S32x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S32x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20) S32x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v23) S32x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_0) S32x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v24_1) S32x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x2 : Shape := ⟨2, ![8192, 2]⟩
abbrev S8192x1 : Shape := ⟨2, ![8192, 1]⟩
abbrev S8192 : Shape := ⟨1, ![8192]⟩
abbrev S_ : Shape := ⟨0, ![]⟩

abbrev nBuf : Space → Nat
  | .hbm => 136
  | .vmem => 0
  | .smem => 0
  | _ => 0

abbrev hbmTy0_0 (i : Nat) : BufTy := match i % 128 with
  | 0 => ⟨S8192x2, .f32⟩
  | 1 => ⟨S8192x2, .f32⟩
  | 2 => ⟨S8192x2, .f32⟩
  | 3 => ⟨S8192x2, .f32⟩
  | 4 => ⟨S8192x1, .f32⟩
  | 5 => ⟨S8192, .f32⟩
  | 6 => ⟨S8192x1, .f32⟩
  | 7 => ⟨S8192, .f32⟩
  | 8 => ⟨S_, .f32⟩
  | 9 => ⟨S8192, .f32⟩
  | 10 => ⟨S8192, .i1⟩
  | 11 => ⟨S8192, .f32⟩
  | 12 => ⟨S_, .f32⟩
  | 13 => ⟨S8192, .f32⟩
  | 14 => ⟨S8192, .f32⟩
  | 15 => ⟨S8192, .f32⟩
  | 16 => ⟨S8192, .f32⟩
  | 17 => ⟨S8192, .f32⟩
  | 18 => ⟨S_, .f32⟩
  | 19 => ⟨S8192, .f32⟩
  | 20 => ⟨S8192, .f32⟩
  | 21 => ⟨S_, .f32⟩
  | 22 => ⟨S8192, .f32⟩
  | 23 => ⟨S8192, .f32⟩
  | 24 => ⟨S_, .f32⟩
  | 25 => ⟨S8192, .f32⟩
  | 26 => ⟨S8192, .f32⟩
  | 27 => ⟨S8192, .f32⟩
  | 28 => ⟨S_, .f32⟩
  | 29 => ⟨S8192, .f32⟩
  | 30 => ⟨S8192, .i1⟩
  | 31 => ⟨S8192, .f32⟩
  | 32 => ⟨S_, .f32⟩
  | 33 => ⟨S8192, .f32⟩
  | 34 => ⟨S8192, .f32⟩
  | 35 => ⟨S8192, .f32⟩
  | 36 => ⟨S8192, .f32⟩
  | 37 => ⟨S8192, .f32⟩
  | 38 => ⟨S_, .f32⟩
  | 39 => ⟨S8192, .f32⟩
  | 40 => ⟨S8192, .f32⟩
  | 41 => ⟨S_, .f32⟩
  | 42 => ⟨S8192, .f32⟩
  | 43 => ⟨S8192, .f32⟩
  | 44 => ⟨S_, .f32⟩
  | 45 => ⟨S8192, .f32⟩
  | 46 => ⟨S8192, .f32⟩
  | 47 => ⟨S8192, .f32⟩
  | 48 => ⟨S8192, .f32⟩
  | 49 => ⟨S_, .f32⟩
  | 50 => ⟨S8192, .f32⟩
  | 51 => ⟨S8192, .i1⟩
  | 52 => ⟨S_, .f32⟩
  | 53 => ⟨S8192, .f32⟩
  | 54 => ⟨S8192, .i1⟩
  | 55 => ⟨S8192, .i1⟩
  | 56 => ⟨S8192, .i1⟩
  | 57 => ⟨S8192, .f32⟩
  | 58 => ⟨S8192, .f32⟩
  | 59 => ⟨S8192, .i1⟩
  | 60 => ⟨S_, .f32⟩
  | 61 => ⟨S_, .f32⟩
  | 62 => ⟨S8192, .f32⟩
  | 63 => ⟨S8192, .f32⟩
  | 64 => ⟨S_, .f32⟩
  | 65 => ⟨S_, .f32⟩
  | 66 => ⟨S8192, .f32⟩
  | 67 => ⟨S8192, .f32⟩
  | 68 => ⟨S_, .f32⟩
  | 69 => ⟨S8192, .f32⟩
  | 70 => ⟨S8192, .i1⟩
  | 71 => ⟨S8192, .f32⟩
  | 72 => ⟨S8192, .f32⟩
  | 73 => ⟨S8192, .f32⟩
  | 74 => ⟨S8192, .f32⟩
  | 75 => ⟨S_, .f32⟩
  | 76 => ⟨S_, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S_, .f32⟩
  | 84 => ⟨S_, .f32⟩
  | 85 => ⟨S8192, .f32⟩
  | 86 => ⟨S8192, .f32⟩
  | 87 => ⟨S8192x1, .f32⟩
  | 88 => ⟨S8192, .f32⟩
  | 89 => ⟨S8192, .f32⟩
  | 90 => ⟨S8192x1, .f32⟩
  | 91 => ⟨S8192, .f32⟩
  | 92 => ⟨S8192, .f32⟩
  | 93 => ⟨S8192, .f32⟩
  | 94 => ⟨S8192x1, .f32⟩
  | 95 => ⟨S8192, .f32⟩
  | 96 => ⟨S8192, .f32⟩
  | 97 => ⟨S8192x1, .f32⟩
  | 98 => ⟨S8192, .f32⟩
  | 99 => ⟨S8192, .f32⟩
  | 100 => ⟨S8192, .f32⟩
  | 101 => ⟨S_, .f32⟩
  | 102 => ⟨S8192, .f32⟩
  | 103 => ⟨S8192, .f32⟩
  | 104 => ⟨S8192x1, .f32⟩
  | 105 => ⟨S8192, .f32⟩
  | 106 => ⟨S8192, .f32⟩
  | 107 => ⟨S_, .f32⟩
  | 108 => ⟨S8192, .f32⟩
  | 109 => ⟨S8192, .f32⟩
  | 110 => ⟨S8192x1, .f32⟩
  | 111 => ⟨S8192, .f32⟩
  | 112 => ⟨S8192, .f32⟩
  | 113 => ⟨S8192, .f32⟩
  | 114 => ⟨S8192, .f32⟩
  | 115 => ⟨S_, .f32⟩
  | 116 => ⟨S8192, .f32⟩
  | 117 => ⟨S8192, .f32⟩
  | 118 => ⟨S8192x1, .f32⟩
  | 119 => ⟨S8192, .f32⟩
  | 120 => ⟨S8192, .f32⟩
  | 121 => ⟨S_, .f32⟩
  | 122 => ⟨S8192, .f32⟩
  | 123 => ⟨S8192, .f32⟩
  | 124 => ⟨S8192x1, .f32⟩
  | 125 => ⟨S8192, .f32⟩
  | 126 => ⟨S8192, .f32⟩
  | 127 => ⟨S8192, .f32⟩
  | _ => ⟨S8192x2, .f32⟩

abbrev hbmTy0_1 (i : Nat) : BufTy := match i % 128 with
  | 0 => ⟨S8192, .f32⟩
  | 1 => ⟨S8192, .i1⟩
  | 2 => ⟨S8192, .f32⟩
  | 3 => ⟨S8192, .i1⟩
  | 4 => ⟨S8192, .f32⟩
  | 5 => ⟨S8192x1, .f32⟩
  | 6 => ⟨S8192x1, .f32⟩
  | 7 => ⟨S8192x2, .f32⟩
  | _ => ⟨S8192x2, .f32⟩

abbrev hbmTy (i : Nat) : BufTy := match i / 128 with
  | 0 => hbmTy0_0 i
  | 1 => hbmTy0_1 i
  | _ => ⟨S8192x2, .f32⟩

abbrev bufTy : (tb : Table) → Fin (tcTables nBuf tb) → BufTy
  | .hbm, ⟨i, _⟩ => hbmTy i
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_call2_v0 : Ref sig .tc := ⟨.hbm, 61, rfl⟩
abbrev main_call2_v1 : Ref sig .tc := ⟨.hbm, 62, rfl⟩
abbrev main_v44 : Ref sig .tc := ⟨.hbm, 63, rfl⟩
abbrev main_cst_12 : Ref sig .tc := ⟨.hbm, 64, rfl⟩
abbrev main_call3_v0 : Ref sig .tc := ⟨.hbm, 65, rfl⟩
abbrev main_call3_v1 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_14 : Ref sig .tc := ⟨.hbm, 75, rfl⟩
abbrev main_call8_v0 : Ref sig .tc := ⟨.hbm, 76, rfl⟩
abbrev main_call8_v1 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_15 : Ref sig .tc := ⟨.hbm, 83, rfl⟩
abbrev main_call9_v0 : Ref sig .tc := ⟨.hbm, 84, rfl⟩
abbrev main_call9_v1 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_17 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_18 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_19 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩

abbrev nD : Nat := 1
abbrev τ : Topo := Topo.v7x

variable {F : FTy → Type} [FloatOps F]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1

variable [Facts₀]

class Facts : Prop extends Facts₀ where

variable [Facts]
-- ==== Proof.Relax.lean ====
/-
  The arithmetic of one neuron, as scalar functions.

  For an interval [l, u] the kernel and the reference both compute, lane by lane,
    spu x      = x·x − 1/2 where x ≥ 0, and σ(−x) − 1 elsewhere (σ the logistic function),
    s          = (spu u − spu l) / (u − l)                         the chord's slope,
    neg, pos   = (u ≤ 0), (l ≥ 0);  cross = ¬(neg ∨ pos),
  then, with the chord's endpoints swapped where s < 0, a lower line of slope (s where neg, else 0) and an
  upper line of slope (s where pos ∨ cross, else 0), each pushed once through the previous layer's slopes
  a, shifts h and bounds b0 ≤ b1 (max(d,0)·b + min(d,0)·b' + v), and kept only where it tightens the
  concrete bound.

  The two programs differ in three spellings only: σ(−x) is the logistic unit at 0 − x in the kernel and
  1 / (1 + exp (−(−x))) on the host; the quotient is the vector unit's in one and the host's in the other;
  ¬b is b xor 1 in one and the complement in the other. So each function is stated once per spelling, for
  any float instance, and the spellings are shown to agree on the extended reals.
-/
import Idealize.ShloMosaic.PureOps.Ideal
import Idealize.ShloMosaic.PureOps.Ideal.Laws
import Idealize.ShloMosaic.Lib.IdealHost

noncomputable section

namespace Cert.SpuRelax

open Idealize.ShloMosaic

variable {F : FTy → Type} [FloatOps F]

/-- The literals both programs use, by their words: 0, 1/2, 1 and −1/2. -/
abbrev cZero : F .f32 := FloatOps.ofBits .f32 0x00000000#32
abbrev cHalf : F .f32 := FloatOps.ofBits .f32 0x3F000000#32
abbrev cOne : F .f32 := FloatOps.ofBits .f32 0x3F800000#32
abbrev cNegHalf : F .f32 := FloatOps.ofBits .f32 0xBF000000#32

/-- spu, the logistic branch through the logistic unit at `0 − x`. -/
def spuK (x : F .f32) : F .f32 :=
  Scalar.select (FloatOps.cmpf .oge x cZero) (FloatOps.subf (FloatOps.mulf x x) cHalf)
    (FloatOps.subf (FloatOps.logistic (FloatOps.subf cZero x)) cOne)

/-- spu, the logistic branch spelt out: `1 / (1 + exp (−(−x)))`. -/
def spuR (x : F .f32) : F .f32 :=
  Scalar.select (FloatOps.cmpf .oge x cZero) (FloatOps.subf (FloatOps.mulf x x) cHalf)
    (FloatOps.subf (FloatOps.hostDivf cOne (FloatOps.addf cOne
      (FloatOps.hostUnary .exp (FloatOps.hostNegf (FloatOps.hostNegf x))))) cOne)

/-- The lower output from the chord's data: `vl`, `vu` the values of spu at the ends, `s` the slope,
    `a0`, `h0` the previous layer's lower slope and shift, `b0`, `b1` its bounds. -/
def lowerOf (l u vl vu s : F .f32) (neg cross : BitVec 1) (a0 h0 b0 b1 : F .f32) : F .f32 :=
  let sl := Scalar.select neg s cZero
  let sw := FloatOps.cmpf .olt s cZero
  let vL := Scalar.select sw vu vl
  let bL := Scalar.select sw u l
  let bnd := Scalar.select cross cNegHalf vL
  let sh := Scalar.select cross cNegHalf (FloatOps.subf vL (FloatOps.mulf sl bL))
  let d := FloatOps.mulf sl a0
  let v := FloatOps.addf (FloatOps.mulf sl h0) sh
  let lb := FloatOps.addf (FloatOps.addf (FloatOps.mulf (FloatOps.maximumf d cZero) b0)
    (FloatOps.mulf (FloatOps.minimumf d cZero) b1)) v
  Scalar.select (FloatOps.cmpf .ogt lb bnd) lb bnd

/-- The upper output from the chord's data: `a1`, `h1` the previous layer's upper slope and shift. -/
def upperOf (l u vl vu s : F .f32) (pos cross : BitVec 1) (a1 h1 b0 b1 : F .f32) : F .f32 :=
  let su := Scalar.select (IntOp.ori pos cross) s cZero
  let sw := FloatOps.cmpf .olt s cZero
  let vU := Scalar.select sw vl vu
  let bU := Scalar.select sw l u
  let sh := FloatOps.subf vU (FloatOps.mulf su bU)
  let d := FloatOps.mulf su a1
  let v := FloatOps.addf (FloatOps.mulf su h1) sh
  let ub := FloatOps.addf (FloatOps.addf (FloatOps.mulf (FloatOps.maximumf d cZero) b1)
    (FloatOps.mulf (FloatOps.minimumf d cZero) b0)) v
  Scalar.select (FloatOps.cmpf .olt ub vU) ub vU

/-- The lower output, kernel's spelling. -/
def loK (l u a0 h0 b0 b1 : F .f32) : F .f32 :=
  let neg := FloatOps.cmpf .ole u cZero
  let pos := FloatOps.cmpf .oge l cZero
  lowerOf l u (spuK l) (spuK u) (FloatOps.divf (FloatOps.subf (spuK u) (spuK l)) (FloatOps.subf u l))
    neg (IntOp.xori (IntOp.ori neg pos) 1#1) a0 h0 b0 b1

/-- The upper output, kernel's spelling. -/
def hiK (l u a1 h1 b0 b1 : F .f32) : F .f32 :=
  let neg := FloatOps.cmpf .ole u cZero
  let pos := FloatOps.cmpf .oge l cZero
  upperOf l u (spuK l) (spuK u) (FloatOps.divf (FloatOps.subf (spuK u) (spuK l)) (FloatOps.subf u l))
    pos (IntOp.xori (IntOp.ori neg pos) 1#1) a1 h1 b0 b1

/-- The lower output, reference's spelling. -/
def loR (l u a0 h0 b0 b1 : F .f32) : F .f32 :=
  let neg := FloatOps.cmpf .ole u cZero
  let pos := FloatOps.cmpf .oge l cZero
  lowerOf l u (spuR l) (spuR u) (FloatOps.hostDivf (FloatOps.subf (spuR u) (spuR l)) (FloatOps.subf u l))
    neg (~~~(IntOp.ori neg pos)) a0 h0 b0 b1

/-- The upper output, reference's spelling. -/
def hiR (l u a1 h1 b0 b1 : F .f32) : F .f32 :=
  let neg := FloatOps.cmpf .ole u cZero
  let pos := FloatOps.cmpf .oge l cZero
  upperOf l u (spuR l) (spuR u) (FloatOps.hostDivf (FloatOps.subf (spuR u) (spuR l)) (FloatOps.subf u l))
    pos (~~~(IntOp.ori neg pos)) a1 h1 b0 b1

/-! ## The spellings agree on the extended reals -/

/-- On one bit, xor with 1 is the complement. -/
theorem xor_one_eq_not (b : BitVec 1) : IntOp.xori b 1#1 = ~~~b := by
  revert b; decide

/-- The logistic unit at `0 − x` is `1 / (1 + exp (−(−x)))`: the unit is that expression by definition, and
    `0 − x = −x` for every extended real. -/
theorem logistic_neg (x : Ideal .f32) :
    FloatOps.logistic (FloatOps.subf (cZero (F := Ideal)) x)
      = FloatOps.hostDivf (cOne (F := Ideal)) (FloatOps.addf cOne
          (FloatOps.hostUnary .exp (FloatOps.hostNegf (FloatOps.hostNegf x)))) := by
  simp only [Ideal.logistic_def, Ideal.subf_def, Ideal.hostDivf_def, Ideal.addf_def, Ideal.hostUnary_exp_def,
    Ideal.hostNegf_def, Ideal.negf_def, Ideal.ofBits_def, Ideal.ofBits_zero_f32, Ideal.ofBits_one_f32,
    Ideal.logistic, zero_sub]

theorem spuK_eq_spuR (x : Ideal .f32) : spuK x = spuR x := by
  unfold spuK spuR
  rw [logistic_neg]

theorem loK_eq_loR (l u a0 h0 b0 b1 : Ideal .f32) : loK l u a0 h0 b0 b1 = loR l u a0 h0 b0 b1 := by
  unfold loK loR
  simp only [spuK_eq_spuR, xor_one_eq_not, Ideal.divf_def, Ideal.hostDivf_def]

theorem hiK_eq_hiR (l u a1 h1 b0 b1 : Ideal .f32) : hiK l u a1 h1 b0 b1 = hiR l u a1 h1 b0 b1 := by
  unfold hiK hiR
  simp only [spuK_eq_spuR, xor_one_eq_not, Ideal.divf_def, Ideal.hostDivf_def]

end Cert.SpuRelax

end
-- ==== Proof.Body.lean ====
/-
  What one grid point leaves in the two output blocks, lane by lane.

  The body loads eight [32,128] blocks — the interval's ends l, u and the previous layer's slopes, shifts and
  bounds, lower and upper each — and stores two: every lane of the first is the lower output of that lane's
  eight numbers, every lane of the second the upper output (Relax.lean's `loK`, `hiK`). Nothing in the body
  mixes lanes, so both statements are the body's operations read at one lane.
-/
import proofs.«143520_j37254546326064_2_alg».proof.Proof.Gen.KernelIdeal.Frame
import proofs.«143520_j37254546326064_2_alg».proof.Proof.Relax
import Idealize.ShloMosaic.Lib.Pipeline.Value

noncomputable section

namespace Cert.SpuRelax.Body

open Cert.KernelIdeal Cert.KernelIdeal.Gen Idealize.ShloMosaic Cert.SpuRelax

variable {F : FTy → Type} [FloatOps F]

/-- The body's one rectangle starts at the block's origin. -/
theorem origin : (![0, 0] : Fin S32x128.rank → Nat) = fun _ => 0 := by
  funext a; fin_cases a <;> rfl

/-- Lane `y` of the first output block is the lower output of lane `y` of the blocks of l, u, the lower slope, the
    lower shift and the two bounds. -/
theorem lower_lane (x0 x1 x2 x3 x4 x5 x6 x7 : Vec F S32x128 .f32) (y : S32x128.Idx) :
    out0_8 x0 x1 x2 x3 x4 x5 x6 x7 y = loK (x0 y) (x1 y) (x2 y) (x4 y) (x6 y) (x7 y) := by
  unfold out0_8
  rw [View.canon_unit_zero origin]
  simp only [View.ld_unit_zero (S := S32x128) origin]
  simp only [k0_pay1, k0_pay3, k0_pay4, k0_pay5, k0_pay6, k0_pay7, k0_pay8, k0_pay9, k0_pay10, k0_pay12, k0_pay13,
    k0_pay14, k0_pay15, k0_pay17, k0_pay18, k0_pay19, k0_pay22, shapeCast_self]
  rfl

/-- Lane `y` of the second output block is the upper output of lane `y` of the blocks of l, u, the upper slope, the
    upper shift and the two bounds. -/
theorem upper_lane (x0 x1 x2 x3 x4 x5 x6 x7 : Vec F S32x128 .f32) (y : S32x128.Idx) :
    out0_9 x0 x1 x2 x3 x4 x5 x6 x7 y = hiK (x0 y) (x1 y) (x3 y) (x5 y) (x6 y) (x7 y) := by
  unfold out0_9
  rw [View.canon_unit_zero origin]
  simp only [View.ld_unit_zero (S := S32x128) origin]
  simp only [k0_pay2, k0_pay3, k0_pay4, k0_pay5, k0_pay6, k0_pay7, k0_pay8, k0_pay9, k0_pay10, k0_pay11, k0_pay13,
    k0_pay14, k0_pay16, k0_pay18, k0_pay19, k0_pay20, k0_pay21, k0_pay23, shapeCast_self]
  rfl

end Cert.SpuRelax.Body

end
-- ==== Proof.Blocks.lean ====
/-
  From blocks to arrays.

  The grid has two points; point t stages rows 32·t … 32·t + 31 of every one of the eight input slabs and of the two
  result slabs (all ten index maps are (t, 0) with [32, 128] blocks). So the block a point writes back is that same block
  of the slab whose entry (r, l) is the lower (or upper) output of entry (r, l) of the six slabs it depends on, and the
  two points' blocks together cover the [64, 128] result: after the run each result array IS that slab.
-/
import proofs.«143520_j37254546326064_2_alg».proof.Proof.Gen.KernelIdeal.Frame
import proofs.«143520_j37254546326064_2_alg».proof.Proof.Body
import Idealize.ShloMosaic.Lib.Pipeline.Value

set_option maxRecDepth 16384

noncomputable section

namespace Cert.SpuRelax.Blocks

open Cert.KernelIdeal Cert.KernelIdeal.Gen Idealize.ShloMosaic Idealize.ShloMosaic.TcCoe Idealize.SL.Sem Cert.SpuRelax
open Idealize.ShloMosaic.Pipeline (Dat Cfg Window)

variable {F : FTy → Type} [FloatOps F]
variable (m : (ℓ : Loc nD τ sig) → Buf (Elt F) ℓ) (ρ : Dev nD → PrngReg)

/-- Entry by entry, the lower output of six slabs: l, u, the lower slope, the lower shift, the two bounds. -/
abbrev lowerSlab (L U A H B0 B1 : S64x128.Idx → Elt F .f32) : S64x128.Idx → Elt F .f32 :=
  fun i => loK (L i) (U i) (A i) (H i) (B0 i) (B1 i)

/-- Entry by entry, the upper output of six slabs: l, u, the upper slope, the upper shift, the two bounds. -/
abbrev upperSlab (L U A H B0 B1 : S64x128.Idx → Elt F .f32) : S64x128.Idx → Elt F .f32 :=
  fun i => hiK (L i) (U i) (A i) (H i) (B0 i) (B1 i)

/-- All ten windows move together over the grid: at each point every window's block index is the first result
    window's, whose row index is at most 1 and whose column index is 0. -/
theorem windows_together : ∀ t : Fin cfg0.N, win0_0.index t (0 : Fin 2) = win0_8.index t (0 : Fin 2)
    ∧ win0_0.index t (1 : Fin 2) = win0_8.index t (1 : Fin 2)
    ∧ win0_1.index t (0 : Fin 2) = win0_8.index t (0 : Fin 2)
    ∧ win0_1.index t (1 : Fin 2) = win0_8.index t (1 : Fin 2)
    ∧ win0_2.index t (0 : Fin 2) = win0_8.index t (0 : Fin 2)
    ∧ win0_2.index t (1 : Fin 2) = win0_8.index t (1 : Fin 2)
    ∧ win0_3.index t (0 : Fin 2) = win0_8.index t (0 : Fin 2)
    ∧ win0_3.index t (1 : Fin 2) = win0_8.index t (1 : Fin 2)
    ∧ win0_4.index t (0 : Fin 2) = win0_8.index t (0 : Fin 2)
    ∧ win0_4.index t (1 : Fin 2) = win0_8.index t (1 : Fin 2)
    ∧ win0_5.index t (0 : Fin 2) = win0_8.index t (0 : Fin 2)
    ∧ win0_5.index t (1 : Fin 2) = win0_8.index t (1 : Fin 2)
    ∧ win0_6.index t (0 : Fin 2) = win0_8.index t (0 : Fin 2)
    ∧ win0_6.index t (1 : Fin 2) = win0_8.index t (1 : Fin 2)
    ∧ win0_7.index t (0 : Fin 2) = win0_8.index t (0 : Fin 2)
    ∧ win0_7.index t (1 : Fin 2) = win0_8.index t (1 : Fin 2)
    ∧ win0_9.index t (0 : Fin 2) = win0_8.index t (0 : Fin 2)
    ∧ win0_9.index t (1 : Fin 2) = win0_8.index t (1 : Fin 2)
    ∧ win0_8.index t (0 : Fin 2) ≤ 1 ∧ win0_8.index t (1 : Fin 2) = 0 :=
  (by decide +kernel : ∀ t : Fin grid0.N, _)

/-- Each half of the rows is some point's block. -/
theorem every_half : ∀ q : Fin 2, ∃ t : Fin cfg0.N, win0_8.index t (0 : Fin 2) = q.val :=
  (by decide +kernel : ∀ q : Fin 2, ∃ t : Fin grid0.N, win0_8.index t (0 : Fin 2) = q.val)

set_option maxHeartbeats 1600000 in
/-- What point `t` writes back to the lower result is block `t` of the lower slab of the six arrays as the region finds
    them: every input block sits where the output block sits, so lane `j` of the block is the same entry of all seven. -/
theorem flushed_lower (c : Dev nD) (t : Fin cfg0.N) :
    (dats m 0 c).flushed 8 t = ((cfg0.win 8).blk t).view.read (Elt F) (lowerSlab (V m c main_v2) (V m c main_v5) (V m c main_v8) (V m c main_v14) (V m c main_v20) (V m c main_v23)) := by
  show (cfg0.win 8).cut (grid0.coords t) ((dats m 0 c).after 8 t) = _
  rw [after0_8]
  obtain ⟨a0, b0, a1, b1, a2, b2, a3, b3, a4, b4, a5, b5, a6, b6, a7, b7, a9, b9, c0, c1⟩ := windows_together t
  funext j
  show out0_8 (iblk m c 0 t) (iblk m c 1 t) (iblk m c 2 t) (iblk m c 3 t) (iblk m c 4 t) (iblk m c 5 t) (iblk m c 6 t) (iblk m c 7 t) j = _
  rw [Body.lower_lane]
  show loK (V m c main_v2 (((cfg0.win 0).blk t).view.emb j)) (V m c main_v5 (((cfg0.win 1).blk t).view.emb j)) (V m c main_v8 (((cfg0.win 2).blk t).view.emb j)) (V m c main_v14 (((cfg0.win 4).blk t).view.emb j)) (V m c main_v20 (((cfg0.win 6).blk t).view.emb j)) (V m c main_v23 (((cfg0.win 7).blk t).view.emb j))
    = loK (V m c main_v2 (((cfg0.win 8).blk t).view.emb j)) (V m c main_v5 (((cfg0.win 8).blk t).view.emb j)) (V m c main_v8 (((cfg0.win 8).blk t).view.emb j)) (V m c main_v14 (((cfg0.win 8).blk t).view.emb j)) (V m c main_v20 (((cfg0.win 8).blk t).view.emb j)) (V m c main_v23 (((cfg0.win 8).blk t).view.emb j))
  have h0 : ((cfg0.win 0).blk t).view.emb j = ((cfg0.win 8).blk t).view.emb j := by
    funext a; apply Fin.ext
    match a with
    | ⟨0, _⟩ => show win0_0.index t (0 : Fin 2) * 32 + 1 * (j 0).val = win0_8.index t (0 : Fin 2) * 32 + 1 * (j 0).val; omega
    | ⟨1, _⟩ => show win0_0.index t (1 : Fin 2) * 128 + 1 * (j 1).val = win0_8.index t (1 : Fin 2) * 128 + 1 * (j 1).val; omega
  have h1 : ((cfg0.win 1).blk t).view.emb j = ((cfg0.win 8).blk t).view.emb j := by
    funext a; apply Fin.ext
    match a with
    | ⟨0, _⟩ => show win0_1.index t (0 : Fin 2) * 32 + 1 * (j 0).val = win0_8.index t (0 : Fin 2) * 32 + 1 * (j 0).val; omega
    | ⟨1, _⟩ => show win0_1.index t (1 : Fin 2) * 128 + 1 * (j 1).val = win0_8.index t (1 : Fin 2) * 128 + 1 * (j 1).val; omega
  have h2 : ((cfg0.win 2).blk t).view.emb j = ((cfg0.win 8).blk t).view.emb j := by
    funext a; apply Fin.ext
    match a with
    | ⟨0, _⟩ => show win0_2.index t (0 : Fin 2) * 32 + 1 * (j 0).val = win0_8.index t (0 : Fin 2) * 32 + 1 * (j 0).val; omega
    | ⟨1, _⟩ => show win0_2.index t (1 : Fin 2) * 128 + 1 * (j 1).val = win0_8.index t (1 : Fin 2) * 128 + 1 * (j 1).val; omega
  have h4 : ((cfg0.win 4).blk t).view.emb j = ((cfg0.win 8).blk t).view.emb j := by
    funext a; apply Fin.ext
    match a with
    | ⟨0, _⟩ => show win0_4.index t (0 : Fin 2) * 32 + 1 * (j 0).val = win0_8.index t (0 : Fin 2) * 32 + 1 * (j 0).val; omega
    | ⟨1, _⟩ => show win0_4.index t (1 : Fin 2) * 128 + 1 * (j 1).val = win0_8.index t (1 : Fin 2) * 128 + 1 * (j 1).val; omega
  have h6 : ((cfg0.win 6).blk t).view.emb j = ((cfg0.win 8).blk t).view.emb j := by
    funext a; apply Fin.ext
    match a with
    | ⟨0, _⟩ => show win0_6.index t (0 : Fin 2) * 32 + 1 * (j 0).val = win0_8.index t (0 : Fin 2) * 32 + 1 * (j 0).val; omega
    | ⟨1, _⟩ => show win0_6.index t (1 : Fin 2) * 128 + 1 * (j 1).val = win0_8.index t (1 : Fin 2) * 128 + 1 * (j 1).val; omega
  have h7 : ((cfg0.win 7).blk t).view.emb j = ((cfg0.win 8).blk t).view.emb j := by
    funext a; apply Fin.ext
    match a with
    | ⟨0, _⟩ => show win0_7.index t (0 : Fin 2) * 32 + 1 * (j 0).val = win0_8.index t (0 : Fin 2) * 32 + 1 * (j 0).val; omega
    | ⟨1, _⟩ => show win0_7.index t (1 : Fin 2) * 128 + 1 * (j 1).val = win0_8.index t (1 : Fin 2) * 128 + 1 * (j 1).val; omega
  rw [h0, h1, h2, h4, h6, h7]

set_option maxHeartbeats 1600000 in
/-- What point `t` writes back to the upper result is block `t` of the upper slab of the six arrays as the region finds
    them: every input block sits where the output block sits, so lane `j` of the block is the same entry of all seven. -/
theorem flushed_upper (c : Dev nD) (t : Fin cfg0.N) :
    (dats m 0 c).flushed 9 t = ((cfg0.win 9).blk t).view.read (Elt F) (upperSlab (V m c main_v2) (V m c main_v5) (V m c main_v11) (V m c main_v17) (V m c main_v20) (V m c main_v23)) := by
  show (cfg0.win 9).cut (grid0.coords t) ((dats m 0 c).after 9 t) = _
  rw [after0_9]
  obtain ⟨a0, b0, a1, b1, a2, b2, a3, b3, a4, b4, a5, b5, a6, b6, a7, b7, a9, b9, c0, c1⟩ := windows_together t
  funext j
  show out0_9 (iblk m c 0 t) (iblk m c 1 t) (iblk m c 2 t) (iblk m c 3 t) (iblk m c 4 t) (iblk m c 5 t) (iblk m c 6 t) (iblk m c 7 t) j = _
  rw [Body.upper_lane]
  show hiK (V m c main_v2 (((cfg0.win 0).blk t).view.emb j)) (V m c main_v5 (((cfg0.win 1).blk t).view.emb j)) (V m c main_v11 (((cfg0.win 3).blk t).view.emb j)) (V m c main_v17 (((cfg0.win 5).blk t).view.emb j)) (V m c main_v20 (((cfg0.win 6).blk t).view.emb j)) (V m c main_v23 (((cfg0.win 7).blk t).view.emb j))
    = hiK (V m c main_v2 (((cfg0.win 9).blk t).view.emb j)) (V m c main_v5 (((cfg0.win 9).blk t).view.emb j)) (V m c main_v11 (((cfg0.win 9).blk t).view.emb j)) (V m c main_v17 (((cfg0.win 9).blk t).view.emb j)) (V m c main_v20 (((cfg0.win 9).blk t).view.emb j)) (V m c main_v23 (((cfg0.win 9).blk t).view.emb j))
  have h0 : ((cfg0.win 0).blk t).view.emb j = ((cfg0.win 9).blk t).view.emb j := by
    funext a; apply Fin.ext
    match a with
    | ⟨0, _⟩ => show win0_0.index t (0 : Fin 2) * 32 + 1 * (j 0).val = win0_9.index t (0 : Fin 2) * 32 + 1 * (j 0).val; omega
    | ⟨1, _⟩ => show win0_0.index t (1 : Fin 2) * 128 + 1 * (j 1).val = win0_9.index t (1 : Fin 2) * 128 + 1 * (j 1).val; omega
  have h1 : ((cfg0.win 1).blk t).view.emb j = ((cfg0.win 9).blk t).view.emb j := by
    funext a; apply Fin.ext
    match a with
    | ⟨0, _⟩ => show win0_1.index t (0 : Fin 2) * 32 + 1 * (j 0).val = win0_9.index t (0 : Fin 2) * 32 + 1 * (j 0).val; omega
    | ⟨1, _⟩ => show win0_1.index t (1 : Fin 2) * 128 + 1 * (j 1).val = win0_9.index t (1 : Fin 2) * 128 + 1 * (j 1).val; omega
  have h3 : ((cfg0.win 3).blk t).view.emb j = ((cfg0.win 9).blk t).view.emb j := by
    funext a; apply Fin.ext
    match a with
    | ⟨0, _⟩ => show win0_3.index t (0 : Fin 2) * 32 + 1 * (j 0).val = win0_9.index t (0 : Fin 2) * 32 + 1 * (j 0).val; omega
    | ⟨1, _⟩ => show win0_3.index t (1 : Fin 2) * 128 + 1 * (j 1).val = win0_9.index t (1 : Fin 2) * 128 + 1 * (j 1).val; omega
  have h5 : ((cfg0.win 5).blk t).view.emb j = ((cfg0.win 9).blk t).view.emb j := by
    funext a; apply Fin.ext
    match a with
    | ⟨0, _⟩ => show win0_5.index t (0 : Fin 2) * 32 + 1 * (j 0).val = win0_9.index t (0 : Fin 2) * 32 + 1 * (j 0).val; omega
    | ⟨1, _⟩ => show win0_5.index t (1 : Fin 2) * 128 + 1 * (j 1).val = win0_9.index t (1 : Fin 2) * 128 + 1 * (j 1).val; omega
  have h6 : ((cfg0.win 6).blk t).view.emb j = ((cfg0.win 9).blk t).view.emb j := by
    funext a; apply Fin.ext
    match a with
    | ⟨0, _⟩ => show win0_6.index t (0 : Fin 2) * 32 + 1 * (j 0).val = win0_9.index t (0 : Fin 2) * 32 + 1 * (j 0).val; omega
    | ⟨1, _⟩ => show win0_6.index t (1 : Fin 2) * 128 + 1 * (j 1).val = win0_9.index t (1 : Fin 2) * 128 + 1 * (j 1).val; omega
  have h7 : ((cfg0.win 7).blk t).view.emb j = ((cfg0.win 9).blk t).view.emb j := by
    funext a; apply Fin.ext
    match a with
    | ⟨0, _⟩ => show win0_7.index t (0 : Fin 2) * 32 + 1 * (j 0).val = win0_9.index t (0 : Fin 2) * 32 + 1 * (j 0).val; omega
    | ⟨1, _⟩ => show win0_7.index t (1 : Fin 2) * 128 + 1 * (j 1).val = win0_9.index t (1 : Fin 2) * 128 + 1 * (j 1).val; omega
  rw [h0, h1, h3, h5, h6, h7]

/-- An entry of the lower result array is in point `t`'s block iff each coordinate is in the block's range. -/
theorem mem_lower_block (t : Fin cfg0.N) (i : S64x128.Idx) :
    i ∈ ((cfg0.win 8).blk t).view.set ↔ ∀ a : Fin 2, win0_8.index t a * S32x128.size a ≤ (i a).val ∧ (i a).val < win0_8.index t a * S32x128.size a + S32x128.size a := by
  show i ∈ ((View.whole main_v24_0).slice (win0_8.rect t)).set ↔ _
  rw [View.set_slice_whole, Rect.mem_set_unit]
  exact Iff.rfl

/-- Every entry of the lower result array is in some point's block: row r is in the block of point r / 32. -/
theorem lower_covered (i : S64x128.Idx) :
    ∃ t : Fin cfg0.N, (cfg0.win 8).flush t = true ∧ i ∈ ((cfg0.win 8).blk t).view.set := by
  have hi0 : (i 0).val < 64 := (i 0).isLt
  have hi1 : (i 1).val < 128 := (i 1).isLt
  obtain ⟨t, ht⟩ := every_half ⟨(i 0).val / 32, by omega⟩
  obtain ⟨a0, b0, a1, b1, a2, b2, a3, b3, a4, b4, a5, b5, a6, b6, a7, b7, a9, b9, c0, c1⟩ := windows_together t
  have q : win0_8.index t (0 : Fin 2) = (i 0).val / 32 := ht
  refine ⟨t, flush0_8 t, ?_⟩
  rw [mem_lower_block]
  intro a
  match a with
  | ⟨0, _⟩ => show win0_8.index t (0 : Fin 2) * 32 ≤ (i 0).val ∧ (i 0).val < win0_8.index t (0 : Fin 2) * 32 + 32; omega
  | ⟨1, _⟩ => show win0_8.index t (1 : Fin 2) * 128 ≤ (i 1).val ∧ (i 1).val < win0_8.index t (1 : Fin 2) * 128 + 128; omega

/-- An entry of the upper result array is in point `t`'s block iff each coordinate is in the block's range. -/
theorem mem_upper_block (t : Fin cfg0.N) (i : S64x128.Idx) :
    i ∈ ((cfg0.win 9).blk t).view.set ↔ ∀ a : Fin 2, win0_9.index t a * S32x128.size a ≤ (i a).val ∧ (i a).val < win0_9.index t a * S32x128.size a + S32x128.size a := by
  show i ∈ ((View.whole main_v24_1).slice (win0_9.rect t)).set ↔ _
  rw [View.set_slice_whole, Rect.mem_set_unit]
  exact Iff.rfl

/-- Every entry of the upper result array is in some point's block: row r is in the block of point r / 32. -/
theorem upper_covered (i : S64x128.Idx) :
    ∃ t : Fin cfg0.N, (cfg0.win 9).flush t = true ∧ i ∈ ((cfg0.win 9).blk t).view.set := by
  have hi0 : (i 0).val < 64 := (i 0).isLt
  have hi1 : (i 1).val < 128 := (i 1).isLt
  obtain ⟨t, ht⟩ := every_half ⟨(i 0).val / 32, by omega⟩
  obtain ⟨a0, b0, a1, b1, a2, b2, a3, b3, a4, b4, a5, b5, a6, b6, a7, b7, a9, b9, c0, c1⟩ := windows_together t
  have q : win0_8.index t (0 : Fin 2) = (i 0).val / 32 := ht
  refine ⟨t, flush0_9 t, ?_⟩
  rw [mem_upper_block]
  intro a
  match a with
  | ⟨0, _⟩ => show win0_9.index t (0 : Fin 2) * 32 ≤ (i 0).val ∧ (i 0).val < win0_9.index t (0 : Fin 2) * 32 + 32; omega
  | ⟨1, _⟩ => show win0_9.index t (1 : Fin 2) * 128 ≤ (i 1).val ∧ (i 1).val < win0_9.index t (1 : Fin 2) * 128 + 128; omega

/-- After the run the first result array is the lower slab of the arrays the region found. -/
theorem final_lower (c : Dev nD) :
    (dats m 0 c).arrAt 8 cfg0.N = lowerSlab (V m c main_v2) (V m c main_v5) (V m c main_v8) (V m c main_v14) (V m c main_v20) (V m c main_v23) :=
  (dats m 0 c).arrAt_eq_of_cover 8 _ (fun t _ => flushed_lower m c t) lower_covered

/-- After the run the second result array is the upper slab of the arrays the region found. -/
theorem final_upper (c : Dev nD) :
    (dats m 0 c).arrAt 9 cfg0.N = upperSlab (V m c main_v2) (V m c main_v5) (V m c main_v11) (V m c main_v17) (V m c main_v20) (V m c main_v23) :=
  (dats m 0 c).arrAt_eq_of_cover 9 _ (fun t _ => flushed_upper m c t) upper_covered

end Cert.SpuRelax.Blocks

end
-- ==== Proof.Layout.lean ====
/-
  How the two programs lay 8192 pairs out.

  The arguments and the result are [8192, 2] tables. The kernel's program cuts each column out, flattens it
  to 8192 entries and views those as a [64, 128] slab (entry (r, l) of the slab is entry 128·r + l of the
  column); after the call it flattens the two result slabs again, makes each an [8192, 1] column and joins
  the two columns. The reference works on the flat columns and ends with the same join. This file reads each of
  those re-layings at an index; no arithmetic on the entries happens here.
-/
import Idealize.ShloMosaic.Lib.Pipeline.Value
import Idealize.ShloMosaic.Lib.ValueIdx

noncomputable section

namespace Cert.SpuRelax.Layout

open Idealize.ShloMosaic Idealize.ShloMosaic.ValueIdx

/-- The table, one of its columns, the column flattened, and the slab. -/
abbrev Table : Shape := ⟨2, ![8192, 2]⟩
abbrev Column : Shape := ⟨2, ![8192, 1]⟩
abbrev Flat : Shape := ⟨1, ![8192]⟩
abbrev Slab : Shape := ⟨2, ![64, 128]⟩

/-- Where slab entry (r, l) sits in the flat column. -/
def pos (r : Fin 64) (l : Fin 128) : Fin 8192 := ⟨128 * r.val + l.val, by omega⟩

/-- The slab row and lane of flat position n. -/
def rowOf (n : Fin 8192) : Fin 64 := ⟨n.val / 128, by omega⟩
def laneOf (n : Fin 8192) : Fin 128 := ⟨n.val % 128, Nat.mod_lt _ (by decide)⟩

theorem pos_rowOf_laneOf (n : Fin 8192) : pos (rowOf n) (laneOf n) = n := by
  apply Fin.ext; show 128 * (n.val / 128) + n.val % 128 = n.val; omega

variable {α : Type}

/-- Column `k` of a table, flattened and viewed as a slab, read at (r, l): the table's entry (128·r + l, k). -/
theorem slab_of_column (off : Fin 2 → Nat) (k : Fin 2) (h0 : off 0 = 0) (h1 : off 1 = k.val)
    (x : Table.Idx → α) (hs : Table.Slices off Column) (hc : Column.ShapeCasts Flat) (hl : Flat.ShapeCasts Slab)
    (r : Fin 64) (l : Fin 128) :
    shapeCast Slab (shapeCast Flat (extractStridedSlice Column off x hs) hc) hl (ix2 r l) = x (ix2 (pos r l) k) := by
  refine (shapeCast_apply _ hl (ix2 r l) (ix1 (pos r l)) ?_).trans ?_
  · rewrite [Shape.rowMajor_val_two, Shape.rowMajor_val_one]
    show 128 * r.val + l.val = r.val * 128 + l.val; omega
  refine (shapeCast_apply _ hc (ix1 (pos r l)) (ix2 (pos r l) (0 : Fin 1)) ?_).trans ?_
  · rewrite [Shape.rowMajor_val_two, Shape.rowMajor_val_one]
    show (pos r l).val * 1 + 0 = (pos r l).val; omega
  exact extractStridedSlice_apply off x hs _ (ix2 (pos r l) k) (fun a => match a with
    | ⟨0, _⟩ => by show (pos r l).val = off 0 + (pos r l).val; omega
    | ⟨1, _⟩ => by show k.val = off 1 + 0; omega)

/-- Column `k` of a table, flattened, read at position n: the table's entry (n, k). -/
theorem flat_of_column (off : Fin 2 → Nat) (k : Fin 2) (h0 : off 0 = 0) (h1 : off 1 = k.val)
    (x : Table.Idx → α) (hs : Table.Slices off Column) (hc : Column.ShapeCasts Flat) (n : Fin 8192) :
    shapeCast Flat (extractStridedSlice Column off x hs) hc (ix1 n) = x (ix2 n k) := by
  refine (shapeCast_apply _ hc (ix1 n) (ix2 n (0 : Fin 1)) ?_).trans ?_
  · rewrite [Shape.rowMajor_val_two, Shape.rowMajor_val_one]
    show n.val * 1 + 0 = n.val; omega
  exact extractStridedSlice_apply off x hs _ (ix2 n k) (fun a => match a with
    | ⟨0, _⟩ => by show n.val = off 0 + n.val; omega
    | ⟨1, _⟩ => by show k.val = off 1 + 0; omega)

/-- A slab flattened, read at position n: the slab's entry (n / 128, n mod 128). -/
theorem flat_of_slab (a : Slab.Idx → α) (hf : Slab.ShapeCasts Flat) (n : Fin 8192) :
    shapeCast Flat a hf (ix1 n) = a (ix2 (rowOf n) (laneOf n)) := by
  refine shapeCast_apply a hf (ix1 n) (ix2 (rowOf n) (laneOf n)) ?_
  rewrite [Shape.rowMajor_val_two, Shape.rowMajor_val_one]
  show n.val / 128 * 128 + n.val % 128 = n.val; omega

/-- A flat vector as an [8192, 1] column, read at (n, 0). -/
theorem column_of_flat (p : Flat.Idx → α) (dims : Fin 1 → Fin 2) (hd : dims 0 = 0) (hb : Flat.BroadcastsInDim Column dims)
    (n : Fin 8192) (u : Fin 1) : broadcastInDim Column dims hb p (ix2 n u) = p (ix1 n) :=
  broadcastInDim_apply dims hb p (ix2 n u) (ix1 n) (fun a => match a with
    | ⟨0, _⟩ => by
      show n.val = if (8192 : Nat) = 1 then 0 else ((ix2 n u : Column.Idx) (dims 0)).val
      rw [if_neg (by decide), hd])

/-- Two columns joined side by side, read in column 0: the first. -/
theorem stack_left (p q : Column.Idx → α) (h : Shape.Concatenates [Column, Column] Table 1) (n : Fin 8192) :
    concatenate Table 1 [⟨Column, p⟩, ⟨Column, q⟩] h (ix2 n (0 : Fin 2)) = p (ix2 n (0 : Fin 1)) :=
  concatenate_pair_apply_left 1 p q h (ix2 n (0 : Fin 2)) rfl (ix2 n (0 : Fin 1)) (fun b => match b with
    | ⟨0, _⟩ => rfl
    | ⟨1, _⟩ => rfl)

/-- Two columns joined side by side, read in column 1: the second. -/
theorem stack_right (p q : Column.Idx → α) (h : Shape.Concatenates [Column, Column] Table 1) (n : Fin 8192) :
    concatenate Table 1 [⟨Column, p⟩, ⟨Column, q⟩] h (ix2 n (1 : Fin 2)) = q (ix2 n (0 : Fin 1)) :=
  concatenate_pair_apply_right 1 p q h (ix2 n (1 : Fin 2)) rfl rfl (ix2 n (0 : Fin 1)) (fun b hb => match b with
    | ⟨0, _⟩ => rfl
    | ⟨1, _⟩ => absurd rfl hb) rfl

end Cert.SpuRelax.Layout

end
-- ==== Proof.Entry.lean ====
/-
  What the region finds in its eight input arrays.

  Before the call the program cuts each column out of each of the four [8192, 2] argument tables, flattens it and views
  it as a [64, 128] slab. So each input array of the call, read at (r, l), is one argument table read at
  (128·r + l, k): the run of those host lines read back, then the three re-layings read at an index (Layout.lean).
-/
import proofs.«143520_j37254546326064_2_alg».proof.Proof.Gen.KernelIdeal.Frame
import proofs.«143520_j37254546326064_2_alg».proof.Proof.Layout
import Idealize.ShloMosaic.Lib.StableHlo.Run

noncomputable section

namespace Cert.SpuRelax.Entry

open Cert.KernelIdeal Cert.KernelIdeal.Gen Idealize.ShloMosaic Idealize.ShloMosaic.TcCoe Idealize.SL.Sem
open Idealize.ShloMosaic.ValueIdx Cert.SpuRelax.Layout

variable {F : FTy → Type} [FloatOps F]
variable (m : (ℓ : Loc nD τ sig) → Buf (Elt F) ℓ)

/-- The slab `main_v2` is column 0 of the interval table: entry (r, l) is the table's entry (128·r + l, 0). -/
theorem main_v2_apply (c : Dev nD) (r : Fin 64) (l : Fin 128) :
    V m c main_v2 (ix2 r l) = m ((c : Thread nD τ).loc main_arg0) (ix2 (pos r l) (0 : Fin 2)) := by
  have e : (V m c main_v2 : S64x128.Idx → Elt F .f32)
      = shapeCast S64x128 (shapeCast S8192 (extractStridedSlice S8192x1 ![0, 0] (m ((c : Thread nD τ).loc main_arg0)) slices_S8192x2_S8192x1_0_0)
          shapeCasts_S8192x1_S8192) shapeCasts_S8192_S64x128 := by
    show StableHlo.after hostOps0 (fun b => m (c, b)) (Proc.devRef .tc main_v2) = _
    after_results
    rfl
  exact (congrFun e (ix2 r l)).trans
    (slab_of_column ![0, 0] (0 : Fin 2) rfl rfl _ slices_S8192x2_S8192x1_0_0 shapeCasts_S8192x1_S8192 shapeCasts_S8192_S64x128 r l)

/-- The slab `main_v5` is column 1 of the interval table: entry (r, l) is the table's entry (128·r + l, 1). -/
theorem main_v5_apply (c : Dev nD) (r : Fin 64) (l : Fin 128) :
    V m c main_v5 (ix2 r l) = m ((c : Thread nD τ).loc main_arg0) (ix2 (pos r l) (1 : Fin 2)) := by
  have e : (V m c main_v5 : S64x128.Idx → Elt F .f32)
      = shapeCast S64x128 (shapeCast S8192 (extractStridedSlice S8192x1 ![0, 1] (m ((c : Thread nD τ).loc main_arg0)) slices_S8192x2_S8192x1_0_1)
          shapeCasts_S8192x1_S8192) shapeCasts_S8192_S64x128 := by
    show StableHlo.after hostOps0 (fun b => m (c, b)) (Proc.devRef .tc main_v5) = _
    after_results
    rfl
  exact (congrFun e (ix2 r l)).trans
    (slab_of_column ![0, 1] (1 : Fin 2) rfl rfl _ slices_S8192x2_S8192x1_0_1 shapeCasts_S8192x1_S8192 shapeCasts_S8192_S64x128 r l)

/-- The slab `main_v8` is column 0 of the previous slopes table: entry (r, l) is the table's entry (128·r + l, 0). -/
theorem main_v8_apply (c : Dev nD) (r : Fin 64) (l : Fin 128) :
    V m c main_v8 (ix2 r l) = m ((c : Thread nD τ).loc main_arg1) (ix2 (pos r l) (0 : Fin 2)) := by
  have e : (V m c main_v8 : S64x128.Idx → Elt F .f32)
      = shapeCast S64x128 (shapeCast S8192 (extractStridedSlice S8192x1 ![0, 0] (m ((c : Thread nD τ).loc main_arg1)) slices_S8192x2_S8192x1_0_0)
          shapeCasts_S8192x1_S8192) shapeCasts_S8192_S64x128 := by
    show StableHlo.after hostOps0 (fun b => m (c, b)) (Proc.devRef .tc main_v8) = _
    after_results
    rfl
  exact (congrFun e (ix2 r l)).trans
    (slab_of_column ![0, 0] (0 : Fin 2) rfl rfl _ slices_S8192x2_S8192x1_0_0 shapeCasts_S8192x1_S8192 shapeCasts_S8192_S64x128 r l)

/-- The slab `main_v11` is column 1 of the previous slopes table: entry (r, l) is the table's entry (128·r + l, 1). -/
theorem main_v11_apply (c : Dev nD) (r : Fin 64) (l : Fin 128) :
    V m c main_v11 (ix2 r l) = m ((c : Thread nD τ).loc main_arg1) (ix2 (pos r l) (1 : Fin 2)) := by
  have e : (V m c main_v11 : S64x128.Idx → Elt F .f32)
      = shapeCast S64x128 (shapeCast S8192 (extractStridedSlice S8192x1 ![0, 1] (m ((c : Thread nD τ).loc main_arg1)) slices_S8192x2_S8192x1_0_1)
          shapeCasts_S8192x1_S8192) shapeCasts_S8192_S64x128 := by
    show StableHlo.after hostOps0 (fun b => m (c, b)) (Proc.devRef .tc main_v11) = _
    after_results
    rfl
  exact (congrFun e (ix2 r l)).trans
    (slab_of_column ![0, 1] (1 : Fin 2) rfl rfl _ slices_S8192x2_S8192x1_0_1 shapeCasts_S8192x1_S8192 shapeCasts_S8192_S64x128 r l)

/-- The slab `main_v14` is column 0 of the previous shifts table: entry (r, l) is the table's entry (128·r + l, 0). -/
theorem main_v14_apply (c : Dev nD) (r : Fin 64) (l : Fin 128) :
    V m c main_v14 (ix2 r l) = m ((c : Thread nD τ).loc main_arg2) (ix2 (pos r l) (0 : Fin 2)) := by
  have e : (V m c main_v14 : S64x128.Idx → Elt F .f32)
      = shapeCast S64x128 (shapeCast S8192 (extractStridedSlice S8192x1 ![0, 0] (m ((c : Thread nD τ).loc main_arg2)) slices_S8192x2_S8192x1_0_0)
          shapeCasts_S8192x1_S8192) shapeCasts_S8192_S64x128 := by
    show StableHlo.after hostOps0 (fun b => m (c, b)) (Proc.devRef .tc main_v14) = _
    after_results
    rfl
  exact (congrFun e (ix2 r l)).trans
    (slab_of_column ![0, 0] (0 : Fin 2) rfl rfl _ slices_S8192x2_S8192x1_0_0 shapeCasts_S8192x1_S8192 shapeCasts_S8192_S64x128 r l)

/-- The slab `main_v17` is column 1 of the previous shifts table: entry (r, l) is the table's entry (128·r + l, 1). -/
theorem main_v17_apply (c : Dev nD) (r : Fin 64) (l : Fin 128) :
    V m c main_v17 (ix2 r l) = m ((c : Thread nD τ).loc main_arg2) (ix2 (pos r l) (1 : Fin 2)) := by
  have e : (V m c main_v17 : S64x128.Idx → Elt F .f32)
      = shapeCast S64x128 (shapeCast S8192 (extractStridedSlice S8192x1 ![0, 1] (m ((c : Thread nD τ).loc main_arg2)) slices_S8192x2_S8192x1_0_1)
          shapeCasts_S8192x1_S8192) shapeCasts_S8192_S64x128 := by
    show StableHlo.after hostOps0 (fun b => m (c, b)) (Proc.devRef .tc main_v17) = _
    after_results
    rfl
  exact (congrFun e (ix2 r l)).trans
    (slab_of_column ![0, 1] (1 : Fin 2) rfl rfl _ slices_S8192x2_S8192x1_0_1 shapeCasts_S8192x1_S8192 shapeCasts_S8192_S64x128 r l)

/-- The slab `main_v20` is column 0 of the previous bounds table: entry (r, l) is the table's entry (128·r + l, 0). -/
theorem main_v20_apply (c : Dev nD) (r : Fin 64) (l : Fin 128) :
    V m c main_v20 (ix2 r l) = m ((c : Thread nD τ).loc main_arg3) (ix2 (pos r l) (0 : Fin 2)) := by
  have e : (V m c main_v20 : S64x128.Idx → Elt F .f32)
      = shapeCast S64x128 (shapeCast S8192 (extractStridedSlice S8192x1 ![0, 0] (m ((c : Thread nD τ).loc main_arg3)) slices_S8192x2_S8192x1_0_0)
          shapeCasts_S8192x1_S8192) shapeCasts_S8192_S64x128 := by
    show StableHlo.after hostOps0 (fun b => m (c, b)) (Proc.devRef .tc main_v20) = _
    after_results
    rfl
  exact (congrFun e (ix2 r l)).trans
    (slab_of_column ![0, 0] (0 : Fin 2) rfl rfl _ slices_S8192x2_S8192x1_0_0 shapeCasts_S8192x1_S8192 shapeCasts_S8192_S64x128 r l)

/-- The slab `main_v23` is column 1 of the previous bounds table: entry (r, l) is the table's entry (128·r + l, 1). -/
theorem main_v23_apply (c : Dev nD) (r : Fin 64) (l : Fin 128) :
    V m c main_v23 (ix2 r l) = m ((c : Thread nD τ).loc main_arg3) (ix2 (pos r l) (1 : Fin 2)) := by
  have e : (V m c main_v23 : S64x128.Idx → Elt F .f32)
      = shapeCast S64x128 (shapeCast S8192 (extractStridedSlice S8192x1 ![0, 1] (m ((c : Thread nD τ).loc main_arg3)) slices_S8192x2_S8192x1_0_1)
          shapeCasts_S8192x1_S8192) shapeCasts_S8192_S64x128 := by
    show StableHlo.after hostOps0 (fun b => m (c, b)) (Proc.devRef .tc main_v23) = _
    after_results
    rfl
  exact (congrFun e (ix2 r l)).trans
    (slab_of_column ![0, 1] (1 : Fin 2) rfl rfl _ slices_S8192x2_S8192x1_0_1 shapeCasts_S8192x1_S8192 shapeCasts_S8192_S64x128 r l)

end Cert.SpuRelax.Entry

end
-- ==== Proof.Result.lean ====
/-
  The result table as one function of the four argument tables.

  Row n of the result is (lower output, upper output) of row n of the arguments: the interval (x0), and the previous
  layer's slopes (x1), shifts (x2) and bounds (x3), whose column 0 feeds the lower line and column 1 the upper one,
  the bounds feeding both. Stated once in the kernel's spelling and once in the reference's; on the extended reals
  the two are one function (Relax.lean).
-/
import proofs.«143520_j37254546326064_2_alg».proof.Proof.Relax
import proofs.«143520_j37254546326064_2_alg».proof.Proof.Layout

noncomputable section

namespace Cert.SpuRelax

open Idealize.ShloMosaic Idealize.ShloMosaic.ValueIdx Cert.SpuRelax.Layout

variable {F : FTy → Type} [FloatOps F]

/-- Row n's lower and upper outputs, kernel's spelling. -/
def rowLoK (x0 x1 x2 x3 : Table.Idx → F .f32) (n : Fin 8192) : F .f32 :=
  loK (x0 (ix2 n (0 : Fin 2))) (x0 (ix2 n (1 : Fin 2))) (x1 (ix2 n (0 : Fin 2))) (x2 (ix2 n (0 : Fin 2)))
    (x3 (ix2 n (0 : Fin 2))) (x3 (ix2 n (1 : Fin 2)))
def rowHiK (x0 x1 x2 x3 : Table.Idx → F .f32) (n : Fin 8192) : F .f32 :=
  hiK (x0 (ix2 n (0 : Fin 2))) (x0 (ix2 n (1 : Fin 2))) (x1 (ix2 n (1 : Fin 2))) (x2 (ix2 n (1 : Fin 2)))
    (x3 (ix2 n (0 : Fin 2))) (x3 (ix2 n (1 : Fin 2)))

/-- Row n's lower and upper outputs, reference's spelling. -/
def rowLoR (x0 x1 x2 x3 : Table.Idx → F .f32) (n : Fin 8192) : F .f32 :=
  loR (x0 (ix2 n (0 : Fin 2))) (x0 (ix2 n (1 : Fin 2))) (x1 (ix2 n (0 : Fin 2))) (x2 (ix2 n (0 : Fin 2)))
    (x3 (ix2 n (0 : Fin 2))) (x3 (ix2 n (1 : Fin 2)))
def rowHiR (x0 x1 x2 x3 : Table.Idx → F .f32) (n : Fin 8192) : F .f32 :=
  hiR (x0 (ix2 n (0 : Fin 2))) (x0 (ix2 n (1 : Fin 2))) (x1 (ix2 n (1 : Fin 2))) (x2 (ix2 n (1 : Fin 2)))
    (x3 (ix2 n (0 : Fin 2))) (x3 (ix2 n (1 : Fin 2)))

/-- The result table: column 0 the lower outputs, column 1 the upper ones (kernel's spelling). -/
def resultK (x0 x1 x2 x3 : Table.Idx → F .f32) : Table.Idx → F .f32 := fun j =>
  if (j 1).val = 0 then rowLoK x0 x1 x2 x3 ⟨(j 0).val, idx2_lt0 j⟩ else rowHiK x0 x1 x2 x3 ⟨(j 0).val, idx2_lt0 j⟩

/-- A table whose column 0 is the lower outputs and whose column 1 is the upper ones is the result table. -/
theorem eq_resultK (x0 x1 x2 x3 : Table.Idx → F .f32) (T : Table.Idx → F .f32)
    (h0 : ∀ n : Fin 8192, T (ix2 n (0 : Fin 2)) = rowLoK x0 x1 x2 x3 n)
    (h1 : ∀ n : Fin 8192, T (ix2 n (1 : Fin 2)) = rowHiK x0 x1 x2 x3 n) : T = resultK x0 x1 x2 x3 := by
  funext j
  obtain ⟨n, k, rfl⟩ : ∃ (n : Fin 8192) (k : Fin 2), j = ix2 n k := ⟨j 0, j 1, eq_ix2 j⟩
  match k with
  | ⟨0, _⟩ => exact h0 n
  | ⟨1, _⟩ => exact h1 n

/-- On the extended reals the reference's spelling gives the same rows. -/
theorem rowLoK_eq_rowLoR (x0 x1 x2 x3 : Table.Idx → Ideal .f32) (n : Fin 8192) :
    rowLoK x0 x1 x2 x3 n = rowLoR x0 x1 x2 x3 n := loK_eq_loR _ _ _ _ _ _
theorem rowHiK_eq_rowHiR (x0 x1 x2 x3 : Table.Idx → Ideal .f32) (n : Fin 8192) :
    rowHiK x0 x1 x2 x3 n = rowHiR x0 x1 x2 x3 n := hiK_eq_hiR _ _ _ _ _ _

end Cert.SpuRelax

end
-- ==== Proof.KernelValue.lean ====
/-
  The kernel's program, read as a value.

  After the call the program flattens the two [64, 128] result slabs, makes each an [8192, 1] column and joins them.
  The slabs are the lower and upper slabs of the arrays the call was given (Blocks.lean), and those arrays are columns
  of the argument tables (Entry.lean; entry (r, l) of a slab is row 128·r + l). Read at (n, 0) and (n, 1) the joined
  table is therefore the lower and the upper output of row n of the arguments: the result table of Result.lean.
-/
import proofs.«143520_j37254546326064_2_alg».proof.Proof.Gen.KernelIdeal.Frame
import proofs.«143520_j37254546326064_2_alg».proof.Proof.Blocks
import proofs.«143520_j37254546326064_2_alg».proof.Proof.Entry
import proofs.«143520_j37254546326064_2_alg».proof.Proof.Result
import Idealize.ShloMosaic.Lib.StableHlo.Run
import Idealize.ShloMosaic.Lib.Pipeline.Value

set_option maxRecDepth 16384

noncomputable section

namespace Cert.SpuRelax.Kernel

open Cert.KernelIdeal Cert.KernelIdeal.Gen Idealize.ShloMosaic Idealize.ShloMosaic.TcCoe Idealize.SL.Sem
open Idealize.ShloMosaic.ValueIdx Cert.SpuRelax Cert.SpuRelax.Layout

variable {F : FTy → Type} [FloatOps F]
variable (m : (ℓ : Loc nD τ sig) → Buf (Elt F) ℓ) (ρ : Dev nD → PrngReg)

/-- What the lines after the call leave in the result: the two result arrays, each flattened and made a column, joined. -/
theorem tail_eq (c : Dev nD) :
    Pipeline.afterTail₀ cfgs (dats m) 0 (V0 m) [hostOps1] c main_v29
      = concatenate S8192x2 1
          [⟨S8192x1, broadcastInDim S8192x1 ![0] bcast_S8192_S8192x1_0
              (shapeCast S8192 ((dats m 0 c).arrAt 8 cfg0.N) shapeCasts_S64x128_S8192)⟩,
           ⟨S8192x1, broadcastInDim S8192x1 ![0] bcast_S8192_S8192x1_0
              (shapeCast S8192 ((dats m 0 c).arrAt 9 cfg0.N) shapeCasts_S64x128_S8192)⟩]
          concatenates_S8192x1_S8192x1_S8192x2_d1 := by
  unfold Pipeline.afterTail₀
  show StableHlo.after hostOps1 _ (Proc.devRef .tc main_v29) = _
  after_results
  have w8 : Pipeline.withArrays (cfgs 0).spec c (V0 m c) (fun w => (dats m 0 c).arrAt w (cfgs 0).N)
      (Proc.devRef .tc main_v24_0) = (dats m 0 c).arrAt 8 cfg0.N :=
    Pipeline.withArrays_arr spec0 launch0.win.arr_inj c (V0 m c) _ 8
  have w9 : Pipeline.withArrays (cfgs 0).spec c (V0 m c) (fun w => (dats m 0 c).arrAt w (cfgs 0).N)
      (Proc.devRef .tc main_v24_1) = (dats m 0 c).arrAt 9 cfg0.N :=
    Pipeline.withArrays_arr spec0 launch0.win.arr_inj c (V0 m c) _ 9
  rw [w8, w9]
  rfl

/-- The program's result is the result table of its four arguments. -/
theorem result_eq (c : Dev nD) :
    Pipeline.afterTail₀ cfgs (dats m) 0 (V0 m) [hostOps1] c main_v29
      = resultK (F := F) (m ((c : Thread nD τ).loc main_arg0)) (m ((c : Thread nD τ).loc main_arg1)) (m ((c : Thread nD τ).loc main_arg2)) (m ((c : Thread nD τ).loc main_arg3)) := by
  rw [tail_eq]
  refine eq_resultK (F := F) _ _ _ _ _ (fun n => ?_) (fun n => ?_)
  · refine (stack_left _ _ _ n).trans ?_
    refine (column_of_flat _ ![0] rfl _ n 0).trans ?_
    refine (flat_of_slab _ _ n).trans ?_
    rw [Blocks.final_lower]
    show loK (V m c main_v2 (ix2 (rowOf n) (laneOf n))) (V m c main_v5 (ix2 (rowOf n) (laneOf n)))
        (V m c main_v8 (ix2 (rowOf n) (laneOf n))) (V m c main_v14 (ix2 (rowOf n) (laneOf n)))
        (V m c main_v20 (ix2 (rowOf n) (laneOf n))) (V m c main_v23 (ix2 (rowOf n) (laneOf n))) = _
    rw [Entry.main_v2_apply, Entry.main_v5_apply, Entry.main_v8_apply, Entry.main_v14_apply, Entry.main_v20_apply,
      Entry.main_v23_apply, pos_rowOf_laneOf]
    rfl
  · refine (stack_right _ _ _ n).trans ?_
    refine (column_of_flat _ ![0] rfl _ n 0).trans ?_
    refine (flat_of_slab _ _ n).trans ?_
    rw [Blocks.final_upper]
    show hiK (V m c main_v2 (ix2 (rowOf n) (laneOf n))) (V m c main_v5 (ix2 (rowOf n) (laneOf n)))
        (V m c main_v11 (ix2 (rowOf n) (laneOf n))) (V m c main_v17 (ix2 (rowOf n) (laneOf n)))
        (V m c main_v20 (ix2 (rowOf n) (laneOf n))) (V m c main_v23 (ix2 (rowOf n) (laneOf n))) = _
    rw [Entry.main_v2_apply, Entry.main_v5_apply, Entry.main_v11_apply, Entry.main_v17_apply, Entry.main_v20_apply,
      Entry.main_v23_apply, pos_rowOf_laneOf]
    rfl

/-- Every weakly fair execution of the kernel's program ends with the result table of its arguments in the result
    and the arguments unchanged. -/
theorem run : θ_run defs (onTc (τ := τ) (main (F := F))) ⟨m, fun _ => 0, ρ⟩ (fun r => ∀ c : Dev nD,
      r.2.mem ((c.tc : Thread nD τ).loc main_v29) = resultK (F := F) (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v29 (Pipeline.mem_restRefs_of main_v29 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.SpuRelax.Kernel

end
-- ==== Proof.RefStages.lean ====
/-
  The reference, stage by stage, at one neuron.

  The reference cuts the two columns out of each argument table, flattens them, and from there on every one of its
  operations is lane by lane; its last three lines make the two result vectors columns and join them. So the value it
  leaves at (n, 0) is the lower output, in the host's spelling, of the eight numbers at row n of the four tables, and at
  (n, 1) the upper output (Relax.lean's `loR`, `hiR`): the generated reading of each stage at an index, chained from the
  result back to the arguments, ends in exactly those two terms.
-/
import proofs.«143520_j37254546326064_2_alg».proof.Proof.Gen.ReferenceIdeal.Read
import proofs.«143520_j37254546326064_2_alg».proof.Proof.Relax
import proofs.«143520_j37254546326064_2_alg».proof.Proof.Layout

noncomputable section

namespace Cert.SpuRelax.Ref

open Cert.ReferenceIdeal Cert.ReferenceIdeal.Gen Idealize.ShloMosaic Idealize.ShloMosaic.ValueIdx
open Cert.SpuRelax Cert.SpuRelax.Layout

variable {F : FTy → Type} [FloatOps F]

/-! ## The flattened columns, read at a position -/

theorem v1_at (x0 : (⟨S8192x2, .f32⟩ : BufTy).Contents (Elt F)) (n : Fin 8192) :
    Read.val_main_v1 (F := F) x0 (ix1 n) = x0 (ix2 n (0 : Fin 2)) := by
  unfold Read.val_main_v1 Read.val_main_v0
  exact flat_of_column ![0, 0] (0 : Fin 2) rfl rfl x0 _ _ n

theorem v3_at (x0 : (⟨S8192x2, .f32⟩ : BufTy).Contents (Elt F)) (n : Fin 8192) :
    Read.val_main_v3 (F := F) x0 (ix1 n) = x0 (ix2 n (1 : Fin 2)) := by
  unfold Read.val_main_v3 Read.val_main_v2
  exact flat_of_column ![0, 1] (1 : Fin 2) rfl rfl x0 _ _ n

theorem v59_at (x1 : (⟨S8192x2, .f32⟩ : BufTy).Contents (Elt F)) (n : Fin 8192) :
    Read.val_main_v59 (F := F) x1 (ix1 n) = x1 (ix2 n (1 : Fin 2)) := by
  unfold Read.val_main_v59 Read.val_main_v58
  exact flat_of_column ![0, 1] (1 : Fin 2) rfl rfl x1 _ _ n

theorem v62_at (x2 : (⟨S8192x2, .f32⟩ : BufTy).Contents (Elt F)) (n : Fin 8192) :
    Read.val_main_v62 (F := F) x2 (ix1 n) = x2 (ix2 n (1 : Fin 2)) := by
  unfold Read.val_main_v62 Read.val_main_v61
  exact flat_of_column ![0, 1] (1 : Fin 2) rfl rfl x2 _ _ n

theorem v66_at (x1 : (⟨S8192x2, .f32⟩ : BufTy).Contents (Elt F)) (n : Fin 8192) :
    Read.val_main_v66 (F := F) x1 (ix1 n) = x1 (ix2 n (0 : Fin 2)) := by
  unfold Read.val_main_v66 Read.val_main_v65
  exact flat_of_column ![0, 0] (0 : Fin 2) rfl rfl x1 _ _ n

theorem v69_at (x2 : (⟨S8192x2, .f32⟩ : BufTy).Contents (Elt F)) (n : Fin 8192) :
    Read.val_main_v69 (F := F) x2 (ix1 n) = x2 (ix2 n (0 : Fin 2)) := by
  unfold Read.val_main_v69 Read.val_main_v68
  exact flat_of_column ![0, 0] (0 : Fin 2) rfl rfl x2 _ _ n

theorem v75_at (x3 : (⟨S8192x2, .f32⟩ : BufTy).Contents (Elt F)) (n : Fin 8192) :
    Read.val_main_v75 (F := F) x3 (ix1 n) = x3 (ix2 n (0 : Fin 2)) := by
  unfold Read.val_main_v75 Read.val_main_v74
  exact flat_of_column ![0, 0] (0 : Fin 2) rfl rfl x3 _ _ n

theorem v80_at (x3 : (⟨S8192x2, .f32⟩ : BufTy).Contents (Elt F)) (n : Fin 8192) :
    Read.val_main_v80 (F := F) x3 (ix1 n) = x3 (ix2 n (1 : Fin 2)) := by
  unfold Read.val_main_v80 Read.val_main_v79
  exact flat_of_column ![0, 1] (1 : Fin 2) rfl rfl x3 _ _ n

theorem v87_at (x3 : (⟨S8192x2, .f32⟩ : BufTy).Contents (Elt F)) (n : Fin 8192) :
    Read.val_main_v87 (F := F) x3 (ix1 n) = x3 (ix2 n (1 : Fin 2)) := by
  unfold Read.val_main_v87 Read.val_main_v86
  exact flat_of_column ![0, 1] (1 : Fin 2) rfl rfl x3 _ _ n

theorem v92_at (x3 : (⟨S8192x2, .f32⟩ : BufTy).Contents (Elt F)) (n : Fin 8192) :
    Read.val_main_v92 (F := F) x3 (ix1 n) = x3 (ix2 n (0 : Fin 2)) := by
  unfold Read.val_main_v92 Read.val_main_v91
  exact flat_of_column ![0, 0] (0 : Fin 2) rfl rfl x3 _ _ n

/-! ## The two result vectors -/

set_option maxHeartbeats 4000000 in
/-- Position n of the first result vector is the lower output of row n of the tables. -/
theorem lower_stage (x0 x1 x2 x3 : (⟨S8192x2, .f32⟩ : BufTy).Contents (Elt F)) (n : Fin 8192) :
    Read.val_main_v97 (F := F) x0 x1 x2 x3 (ix1 n)
      = loR (x0 (ix2 n (0 : Fin 2))) (x0 (ix2 n (1 : Fin 2))) (x1 (ix2 n (0 : Fin 2))) (x2 (ix2 n (0 : Fin 2)))
          (x3 (ix2 n (0 : Fin 2))) (x3 (ix2 n (1 : Fin 2))) := by
  simp only [v1_at, v3_at, v59_at, v62_at, v66_at, v69_at, v75_at, v80_at, v87_at, v92_at, Read.val_main_cst_apply,
    Read.val_main_v4_apply, Read.val_main_v5_apply, Read.val_main_v6_apply, Read.val_main_cst_0_apply,
    Read.val_main_v7_apply, Read.val_main_v8_apply, Read.val_main_v9_apply, Read.val_main_v10_apply,
    Read.val_main_v11_apply, Read.val_main_cst_1_apply, Read.val_main_v12_apply, Read.val_main_v13_apply,
    Read.val_main_cst_2_apply, Read.val_main_v14_apply, Read.val_main_v15_apply, Read.val_main_cst_3_apply,
    Read.val_main_v16_apply, Read.val_main_v17_apply, Read.val_main_v18_apply, Read.val_main_cst_4_apply,
    Read.val_main_v19_apply, Read.val_main_v20_apply, Read.val_main_v21_apply, Read.val_main_cst_5_apply,
    Read.val_main_v22_apply, Read.val_main_v23_apply, Read.val_main_v24_apply, Read.val_main_v25_apply,
    Read.val_main_v26_apply, Read.val_main_cst_6_apply, Read.val_main_v27_apply, Read.val_main_v28_apply,
    Read.val_main_cst_7_apply, Read.val_main_v29_apply, Read.val_main_v30_apply, Read.val_main_cst_8_apply,
    Read.val_main_v31_apply, Read.val_main_v32_apply, Read.val_main_v33_apply, Read.val_main_v34_apply,
    Read.val_main_cst_9_apply, Read.val_main_v35_apply, Read.val_main_v36_apply, Read.val_main_cst_10_apply,
    Read.val_main_v37_apply, Read.val_main_v38_apply, Read.val_main_v39_apply, Read.val_main_v40_apply,
    Read.val_main_v41_apply, Read.val_main_v42_apply, Read.val_main_v43_apply, Read.val_main_cst_11_apply,
    Read.val_main_call2_v0_apply, Read.val_main_call2_v1_apply, Read.val_main_v44_apply,
    Read.val_main_cst_12_apply, Read.val_main_call3_v0_apply, Read.val_main_call3_v1_apply,
    Read.val_main_v45_apply, Read.val_main_cst_13_apply, Read.val_main_v46_apply, Read.val_main_v47_apply,
    Read.val_main_v48_apply, Read.val_main_v49_apply, Read.val_main_v50_apply, Read.val_main_v51_apply,
    Read.val_main_cst_14_apply, Read.val_main_call8_v0_apply, Read.val_main_call8_v1_apply,
    Read.val_main_v52_apply, Read.val_main_v53_apply, Read.val_main_v54_apply, Read.val_main_v55_apply,
    Read.val_main_v56_apply, Read.val_main_cst_15_apply, Read.val_main_call9_v0_apply,
    Read.val_main_call9_v1_apply, Read.val_main_v57_apply, Read.val_main_v60_apply, Read.val_main_v63_apply,
    Read.val_main_v64_apply, Read.val_main_v67_apply, Read.val_main_v70_apply, Read.val_main_v71_apply,
    Read.val_main_cst_16_apply, Read.val_main_v72_apply, Read.val_main_v73_apply, Read.val_main_v76_apply,
    Read.val_main_cst_17_apply, Read.val_main_v77_apply, Read.val_main_v78_apply, Read.val_main_v81_apply,
    Read.val_main_v82_apply, Read.val_main_v83_apply, Read.val_main_cst_18_apply, Read.val_main_v84_apply,
    Read.val_main_v85_apply, Read.val_main_v88_apply, Read.val_main_cst_19_apply, Read.val_main_v89_apply,
    Read.val_main_v90_apply, Read.val_main_v93_apply, Read.val_main_v94_apply, Read.val_main_v95_apply,
    Read.val_main_v96_apply, Read.val_main_v97_apply, Read.val_main_v98_apply, Read.val_main_v99_apply]
  rfl

set_option maxHeartbeats 4000000 in
/-- Position n of the second result vector is the upper output of row n of the tables. -/
theorem upper_stage (x0 x1 x2 x3 : (⟨S8192x2, .f32⟩ : BufTy).Contents (Elt F)) (n : Fin 8192) :
    Read.val_main_v99 (F := F) x0 x1 x2 x3 (ix1 n)
      = hiR (x0 (ix2 n (0 : Fin 2))) (x0 (ix2 n (1 : Fin 2))) (x1 (ix2 n (1 : Fin 2))) (x2 (ix2 n (1 : Fin 2)))
          (x3 (ix2 n (0 : Fin 2))) (x3 (ix2 n (1 : Fin 2))) := by
  simp only [v1_at, v3_at, v59_at, v62_at, v66_at, v69_at, v75_at, v80_at, v87_at, v92_at, Read.val_main_cst_apply,
    Read.val_main_v4_apply, Read.val_main_v5_apply, Read.val_main_v6_apply, Read.val_main_cst_0_apply,
    Read.val_main_v7_apply, Read.val_main_v8_apply, Read.val_main_v9_apply, Read.val_main_v10_apply,
    Read.val_main_v11_apply, Read.val_main_cst_1_apply, Read.val_main_v12_apply, Read.val_main_v13_apply,
    Read.val_main_cst_2_apply, Read.val_main_v14_apply, Read.val_main_v15_apply, Read.val_main_cst_3_apply,
    Read.val_main_v16_apply, Read.val_main_v17_apply, Read.val_main_v18_apply, Read.val_main_cst_4_apply,
    Read.val_main_v19_apply, Read.val_main_v20_apply, Read.val_main_v21_apply, Read.val_main_cst_5_apply,
    Read.val_main_v22_apply, Read.val_main_v23_apply, Read.val_main_v24_apply, Read.val_main_v25_apply,
    Read.val_main_v26_apply, Read.val_main_cst_6_apply, Read.val_main_v27_apply, Read.val_main_v28_apply,
    Read.val_main_cst_7_apply, Read.val_main_v29_apply, Read.val_main_v30_apply, Read.val_main_cst_8_apply,
    Read.val_main_v31_apply, Read.val_main_v32_apply, Read.val_main_v33_apply, Read.val_main_v34_apply,
    Read.val_main_cst_9_apply, Read.val_main_v35_apply, Read.val_main_v36_apply, Read.val_main_cst_10_apply,
    Read.val_main_v37_apply, Read.val_main_v38_apply, Read.val_main_v39_apply, Read.val_main_v40_apply,
    Read.val_main_v41_apply, Read.val_main_v42_apply, Read.val_main_v43_apply, Read.val_main_cst_11_apply,
    Read.val_main_call2_v0_apply, Read.val_main_call2_v1_apply, Read.val_main_v44_apply,
    Read.val_main_cst_12_apply, Read.val_main_call3_v0_apply, Read.val_main_call3_v1_apply,
    Read.val_main_v45_apply, Read.val_main_cst_13_apply, Read.val_main_v46_apply, Read.val_main_v47_apply,
    Read.val_main_v48_apply, Read.val_main_v49_apply, Read.val_main_v50_apply, Read.val_main_v51_apply,
    Read.val_main_cst_14_apply, Read.val_main_call8_v0_apply, Read.val_main_call8_v1_apply,
    Read.val_main_v52_apply, Read.val_main_v53_apply, Read.val_main_v54_apply, Read.val_main_v55_apply,
    Read.val_main_v56_apply, Read.val_main_cst_15_apply, Read.val_main_call9_v0_apply,
    Read.val_main_call9_v1_apply, Read.val_main_v57_apply, Read.val_main_v60_apply, Read.val_main_v63_apply,
    Read.val_main_v64_apply, Read.val_main_v67_apply, Read.val_main_v70_apply, Read.val_main_v71_apply,
    Read.val_main_cst_16_apply, Read.val_main_v72_apply, Read.val_main_v73_apply, Read.val_main_v76_apply,
    Read.val_main_cst_17_apply, Read.val_main_v77_apply, Read.val_main_v78_apply, Read.val_main_v81_apply,
    Read.val_main_v82_apply, Read.val_main_v83_apply, Read.val_main_cst_18_apply, Read.val_main_v84_apply,
    Read.val_main_v85_apply, Read.val_main_v88_apply, Read.val_main_cst_19_apply, Read.val_main_v89_apply,
    Read.val_main_v90_apply, Read.val_main_v93_apply, Read.val_main_v94_apply, Read.val_main_v95_apply,
    Read.val_main_v96_apply, Read.val_main_v97_apply, Read.val_main_v98_apply, Read.val_main_v99_apply]
  rfl

/-! ## The result table -/

/-- Column 0 of the reference's result, at row n. -/
theorem result_lower (x0 x1 x2 x3 : (⟨S8192x2, .f32⟩ : BufTy).Contents (Elt F)) (n : Fin 8192) :
    Read.val_main_v102 (F := F) x0 x1 x2 x3 (ix2 n (0 : Fin 2))
      = loR (x0 (ix2 n (0 : Fin 2))) (x0 (ix2 n (1 : Fin 2))) (x1 (ix2 n (0 : Fin 2))) (x2 (ix2 n (0 : Fin 2)))
          (x3 (ix2 n (0 : Fin 2))) (x3 (ix2 n (1 : Fin 2))) := by
  unfold Read.val_main_v102
  refine (stack_left _ _ _ n).trans ?_
  unfold Read.val_main_v100
  refine (column_of_flat _ ![0] rfl _ n 0).trans ?_
  exact lower_stage x0 x1 x2 x3 n

/-- Column 1 of the reference's result, at row n. -/
theorem result_upper (x0 x1 x2 x3 : (⟨S8192x2, .f32⟩ : BufTy).Contents (Elt F)) (n : Fin 8192) :
    Read.val_main_v102 (F := F) x0 x1 x2 x3 (ix2 n (1 : Fin 2))
      = hiR (x0 (ix2 n (0 : Fin 2))) (x0 (ix2 n (1 : Fin 2))) (x1 (ix2 n (1 : Fin 2))) (x2 (ix2 n (1 : Fin 2)))
          (x3 (ix2 n (0 : Fin 2))) (x3 (ix2 n (1 : Fin 2))) := by
  unfold Read.val_main_v102
  refine (stack_right _ _ _ n).trans ?_
  unfold Read.val_main_v101
  refine (column_of_flat _ ![0] rfl _ n 0).trans ?_
  exact upper_stage x0 x1 x2 x3 n

end Cert.SpuRelax.Ref

end
-- ==== Proof.RefValue.lean ====
/-
  The reference's result is the kernel's result table.

  Column by column the reference leaves the lower and the upper output of each row in the host's spelling
  (RefStages.lean); on the extended reals that spelling and the kernel's are one function (Relax.lean), so the
  reference's result is the result table stated for the kernel (Result.lean).
-/
import proofs.«143520_j37254546326064_2_alg».proof.Proof.RefStages
import proofs.«143520_j37254546326064_2_alg».proof.Proof.Result

noncomputable section

namespace Cert.SpuRelax.Ref

open Cert.ReferenceIdeal Cert.ReferenceIdeal.Gen Idealize.ShloMosaic Cert.SpuRelax

theorem result_eq (x0 x1 x2 x3 : (⟨S8192x2, .f32⟩ : BufTy).Contents (Elt Ideal)) :
    Read.val_main_v102 (F := Ideal) x0 x1 x2 x3 = resultK (F := Ideal) x0 x1 x2 x3 :=
  (eq_resultK (F := Ideal) x0 x1 x2 x3 _
    (fun n => (result_lower x0 x1 x2 x3 n).trans (rowLoK_eq_rowLoR x0 x1 x2 x3 n).symm)
    (fun n => (result_upper x0 x1 x2 x3 n).trans (rowHiK_eq_rowHiR x0 x1 x2 x3 n).symm))

end Cert.SpuRelax.Ref

end
-- ==== Proof.Claims.lean ====
/-
  The five claims.

  The two kernels' frames are the generated ones. The reference has no kernel: its frame is its generated run with
  the result dropped. Nothing was rewritten by the idealization, so there is nothing to preserve. For the value claim
  both programs end at ONE table, the result table of the arguments (Result.lean): the kernel's program by
  KernelValue.lean, the reference by its generated run, the generated reading of that run's term as its last stage,
  and RefValue.lean — with the reference's arguments replaced by the kernel's, which they equal.
-/
import proofs.«143520_j37254546326064_2_alg».proof.Defs
import proofs.«143520_j37254546326064_2_alg».proof.Proof.Gen.Kernel.Frame
import proofs.«143520_j37254546326064_2_alg».proof.Proof.Gen.KernelIdeal.Frame
import proofs.«143520_j37254546326064_2_alg».proof.Proof.Gen.ReferenceIdeal.Run
import proofs.«143520_j37254546326064_2_alg».proof.Proof.Gen.ReferenceIdeal.Read
import proofs.«143520_j37254546326064_2_alg».proof.Proof.Gen.Pre_finite_inputs
import proofs.«143520_j37254546326064_2_alg».proof.Proof.KernelValue
import proofs.«143520_j37254546326064_2_alg».proof.Proof.RefValue

noncomputable section

namespace Cert.Proof.SpuClaims

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result table of the kernel's arguments. -/
theorem algebraic : Cert.algebraic_KernelIdeal_ReferenceIdeal := by
  intro m ρ m' ρ' _ hagree
  refine ⟨fun c => Cert.SpuRelax.resultK (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.SpuRelax.Kernel.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v102_eq, Cert.SpuRelax.Ref.result_eq,
    (hagree c).1, (hagree c).2.1, (hagree c).2.2.1, (hagree c).2.2.2]

end Cert.Proof.SpuClaims

end
-- ==== Proof.lean ====
/-
  A piecewise-linear relaxation of the SPU activation over 8192 intervals, followed by one diagonal
  back-substitution step, computed by a kernel on [64, 128] slabs and by a plain reference on flat columns.

  For each interval [l, u] both programs take spu x = x·x − 1/2 (x ≥ 0), σ(−x) − 1 (x < 0) at the two ends, the chord's
  slope, a lower and an upper line chosen by the interval's sign pattern, push each line once through the previous
  layer's slopes, shifts and bounds, and keep the pushed bound only where it is tighter. Every step is lane by lane; the
  kernel's program only re-lays the columns of the [8192, 2] tables as slabs, runs two grid points of [32, 128] blocks,
  and lays the two result slabs back as columns. At the exact instance the three spellings in which the programs differ
  (the logistic unit against 1 / (1 + exp), the two quotients, xor-with-one against complement) denote the same
  functions on the extended reals, so no finiteness of the inputs is used.

  The modules: Relax (the scalar functions, both spellings, and their agreement), Layout (the re-layings read at an
  index), Result (the result table as a function of the arguments), Body / Blocks / Entry / KernelValue (the kernel's
  program ends at that table), RefStages / RefValue (so does the reference), Claims (the five claims).
-/
import proofs.«143520_j37254546326064_2_alg».proof.Defs
import proofs.«143520_j37254546326064_2_alg».proof.Proof.Gen.Kernel
import proofs.«143520_j37254546326064_2_alg».proof.Proof.Gen.KernelIdeal
import proofs.«143520_j37254546326064_2_alg».proof.Proof.Gen.ReferenceIdeal
import proofs.«143520_j37254546326064_2_alg».proof.Proof.Gen.Pre_finite_inputs
import proofs.«143520_j37254546326064_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    SpuClaims.frame_kernel, SpuClaims.frame_kernel_ideal, SpuClaims.frame_reference, SpuClaims.preserves,
    SpuClaims.algebraic⟩

end Cert.Proof

end
